-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1600000x64 : Shape := ⟨2, ![1600000, 64]⟩
abbrev S1600000 : Shape := ⟨1, ![1600000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S256x64 .f32) (main_arg6 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg5
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S1600000x64 .f32) (main_arg2 : IVec S1600000 32) (main_arg3 : FVec F S128x256 .f32) (main_arg4 : FVec F S256 .f32) (main_arg5 : FVec F S256x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x64 : Shape := ⟨2, ![50000, 64]⟩
abbrev S1600000x64 : Shape := ⟨2, ![1600000, 64]⟩
abbrev S1600000 : Shape := ⟨1, ![1600000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩
abbrev S1600000x1 : Shape := ⟨2, ![1600000, 1]⟩
abbrev S50000 : Shape := ⟨1, ![50000]⟩
abbrev S50000x1 : Shape := ⟨2, ![50000, 1]⟩
abbrev S64x256 : Shape := ⟨2, ![64, 256]⟩
abbrev S1x256 : Shape := ⟨2, ![1, 256]⟩
abbrev S1x64 : Shape := ⟨2, ![1, 64]⟩
abbrev S5000x64 : Shape := ⟨2, ![5000, 64]⟩
abbrev S5000x256 : Shape := ⟨2, ![5000, 256]⟩

abbrev nBuf : Space → Nat
  | .hbm => 31
  | .vmem => 11
  | .smem => 0
  | _ => 0

abbrev bufTy : (tb : Table) → Fin (tcTables nBuf tb) → BufTy
  | .hbm, ⟨0, _⟩ => ⟨S50000x64, .f32⟩
  | .hbm, ⟨1, _⟩ => ⟨S1600000x64, .f32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S_, .f32⟩
  | .hbm, ⟨8, _⟩ => ⟨S50000x64, .f32⟩
  | .hbm, ⟨9, _⟩ => ⟨S1600000x1, .i32⟩
  | .hbm, ⟨10, _⟩ => ⟨S50000x64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x64, .f32⟩
  | .hbm, ⟨22, _⟩ => ⟨S50000x64, .f32⟩
  | .hbm, ⟨23, _⟩ => ⟨S64x256, .f32⟩
  | .hbm, ⟨24, _⟩ => ⟨S64x256, .bf16⟩
  | .hbm, ⟨25, _⟩ => ⟨S64x256, .f32⟩
  | .hbm, ⟨26, _⟩ => ⟨S64x256, .bf16⟩
  | .hbm, ⟨27, _⟩ => ⟨S256x64, .bf16⟩
  | .hbm, ⟨28, _⟩ => ⟨S1x256, .f32⟩
  | .hbm, ⟨29, _⟩ => ⟨S1x64, .f32⟩
  | .hbm, ⟨30, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x256, .bf16⟩
  | .local _ .vmem, ⟨5, _⟩ => ⟨S64x256, .bf16⟩
  | .local _ .vmem, ⟨6, _⟩ => ⟨S1x256, .f32⟩
  | .local _ .vmem, ⟨7, _⟩ => ⟨S256x64, .bf16⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S50000x64 : S_.BroadcastsInDim S50000x64 (![] : Fin 0 → Fin S50000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  slices_S128x256_S64x256_0_0 : S128x256.Slices ![0, 0] S64x256
  bitsLt_bf16_f32 : FTy.bits .bf16 < FTy.bits .f32
  slices_S128x256_S64x256_64_0 : S128x256.Slices ![64, 0] S64x256
  shapeCasts_S256_S1x256 : S256.ShapeCasts S1x256
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S5000x64_S64x256_S5000x256_1_0_0_1_n_n_wf : DotDims.WF S5000x64 S64x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .bf16 = 32 ∨ (Rect.block (s := S64x256) S64x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .bf16 = 32 ∨ (Rect.block (s := S256x64) S256x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)

variable [Facts₀]

def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v11) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S1600000x64 : Shape := ⟨2, ![1600000, 64]⟩
abbrev S1600000 : Shape := ⟨1, ![1600000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩
abbrev S1600000x1 : Shape := ⟨2, ![1600000, 1]⟩
abbrev S50000 : Shape := ⟨1, ![50000]⟩
abbrev S50000x1 : Shape := ⟨2, ![50000, 1]⟩
abbrev S50000x128 : Shape := ⟨2, ![50000, 128]⟩
abbrev S50000x256 : Shape := ⟨2, ![50000, 256]⟩
abbrev S1x256 : Shape := ⟨2, ![1, 256]⟩
abbrev S1x64 : Shape := ⟨2, ![1, 64]⟩

abbrev nBuf : Space → Nat
  | .hbm => 35
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1600000x64, .f32⟩
  | .hbm, ⟨2, _⟩ => ⟨S1600000, .i32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S_, .f32⟩
  | .hbm, ⟨8, _⟩ => ⟨S50000x64, .f32⟩
  | .hbm, ⟨9, _⟩ => ⟨S1600000x1, .i32⟩
  | .hbm, ⟨10, _⟩ => ⟨S50000x64, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x64, .f32⟩
  | .hbm, ⟨22, _⟩ => ⟨S50000x64, .f32⟩
  | .hbm, ⟨23, _⟩ => ⟨S50000x128, .f32⟩
  | .hbm, ⟨24, _⟩ => ⟨S50000x256, .f32⟩
  | .hbm, ⟨25, _⟩ => ⟨S1x256, .f32⟩
  | .hbm, ⟨26, _⟩ => ⟨S50000x256, .f32⟩
  | .hbm, ⟨27, _⟩ => ⟨S50000x256, .f32⟩
  | .hbm, ⟨28, _⟩ => ⟨S_, .f32⟩
  | .hbm, ⟨29, _⟩ => ⟨S50000x256, .f32⟩
  | .hbm, ⟨30, _⟩ => ⟨S50000x256, .f32⟩
  | .hbm, ⟨31, _⟩ => ⟨S50000x64, .f32⟩
  | .hbm, ⟨32, _⟩ => ⟨S1x64, .f32⟩
  | .hbm, ⟨33, _⟩ => ⟨S50000x64, .f32⟩
  | .hbm, ⟨34, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S50000x128_S128x256_S50000x256_1_0_0_1_n_n_wf : DotDims.WF S50000x128 S128x256 S50000x256 [1] [0] [0] [1] [] []
  dot_S50000x256_S256x64_S50000x64_1_0_0_1_n_n_wf : DotDims.WF S50000x256 S256x64 S50000x64 [1] [0] [0] [1] [] []

variable [Facts₀]

def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«103879_j74234214744860_2_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibHostBroadcast.lean ====
/-
  The host's `broadcast_in_dim` in its four keepdims forms, read at an entry: a vector `[a]` as a column `[a, 1]`, a
  column `[a, 1]` spread over `b` lanes, a vector `[c]` as a row `[1, c]`, and a row `[1, c]` spread down `a` rows.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- A vector `[a]` broadcast along axis 0 to the column `[a, 1]` reads, at `(i, u)`, the vector at `i`. -/
theorem vec_to_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x (ix2 i u) (ix1 i) fun ax => by
    match ax with
    | ⟨0, _⟩ =>
      show i.val = if a = 1 then 0 else i.val
      split
      · have := i.isLt; omega
      · rfl

/-- A column `[a, 1]` broadcast to `[a, b]` reads, at `(i, j)`, the column at `(i, 0)`. -/
theorem col_to_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) :=
  broadcastInDim_apply _ h x (ix2 i j) (ix2 i (0 : Fin 1)) fun ax => by
    match ax with
    | ⟨0, _⟩ =>
      show i.val = if a = 1 then 0 else i.val
      split
      · have := i.isLt; omega
      · rfl
    | ⟨1, _⟩ =>
      show 0 = if (1 : ℕ) = 1 then 0 else j.val
      rw [if_pos rfl]

/-- A vector `[c]` broadcast along axis 1 to the row `[1, c]` reads, at `(u, j)`, the vector at `j`. -/
theorem vec_to_row_apply {c : ℕ} (x : (⟨1, ![c]⟩ : Shape).Idx → α)
    (h : (⟨1, ![c]⟩ : Shape).BroadcastsInDim ⟨2, ![1, c]⟩ (![1] : Fin 1 → Fin 2)) (u : Fin 1) (j : Fin c) :
    broadcastInDim ⟨2, ![1, c]⟩ (![1] : Fin 1 → Fin 2) h x (ix2 u j) = x (ix1 j) :=
  broadcastInDim_apply _ h x (ix2 u j) (ix1 j) fun ax => by
    match ax with
    | ⟨0, _⟩ =>
      show j.val = if c = 1 then 0 else j.val
      split
      · have := j.isLt; omega
      · rfl

/-- A row `[1, c]` broadcast to `[a, c]` reads, at `(i, j)`, the row at `(0, j)`. -/
theorem row_to_mat_apply {a c : ℕ} (x : (⟨2, ![1, c]⟩ : Shape).Idx → α)
    (h : (⟨2, ![1, c]⟩ : Shape).BroadcastsInDim ⟨2, ![a, c]⟩ (![0, 1] : Fin 2 → Fin 2)) (i : Fin a) (j : Fin c) :
    broadcastInDim ⟨2, ![a, c]⟩ (![0, 1] : Fin 2 → Fin 2) h x (ix2 i j) = x (ix2 (0 : Fin 1) j) :=
  broadcastInDim_apply _ h x (ix2 i j) (ix2 (0 : Fin 1) j) fun ax => by
    match ax with
    | ⟨0, _⟩ =>
      show 0 = if (1 : ℕ) = 1 then 0 else i.val
      rw [if_pos rfl]
    | ⟨1, _⟩ =>
      show j.val = if c = 1 then 0 else j.val
      split
      · have := j.isLt; omega
      · rfl

end Cert.LibHostBroadcast

end
-- ==== Proof.LibDenseLayers.lean ====
/-
  Dense layers as functions of whole arrays over the extended reals, for any extents, and how a kernel and a host program
  each compute an entry: general lemmas.

  `dense x w b` is `x · w + b`: entry (p, q) is the sum over j of x(p, j) · w(j, q), plus the bias row's entry q.
  `dense2 x₁ x₂ w b` multiplies the rows of `w` below `k₁` with `x₁` and the rows from `k₁` on with `x₂`:
  entry (p, q) is  Σ_{j<k₁} x₁(p, j) · w(j, q)  +  Σ_{j<k₂} x₂(p, j) · w(k₁ + j, q),  plus the bias.
  The kernel computes exactly these (two matrix products into zero accumulators, on the two row ranges of the weight
  block, then the broadcast bias row). The reference concatenates `x₁` and `x₂` along the columns and takes ONE product
  over all k₁ + k₂ columns: a sum over `Fin (k₁ + k₂)` splits into its first k₁ and last k₂ terms — additivity of a
  finite sum over a disjoint union, which holds in any commutative monoid, so no finiteness of the entries is needed.
-/
import proofs.«103879_j74234214744860_2_alg».proof.Proof.LibMatRows
import proofs.«103879_j74234214744860_2_alg».proof.Proof.LibHostBroadcast
import Idealize.ShloMosaic.Lib.ValueLayout
import Idealize.ShloMosaic.Lib.Pipeline.Value
import Idealize.ShloMosaic.Lib.ValueIdx
import Idealize.ShloMosaic.PureOps.Ideal.Laws

noncomputable section

namespace Cert.LibDenseLayers

open Idealize.ShloMosaic Idealize.ShloMosaic.ValueIdx Cert.LibMatRows Cert.LibHostBroadcast

variable {a k k1 k2 n : ℕ}

/-! ## The layers -/

/-- Entry (p, q) of `x · w + b`. -/
def denseAt (x : (⟨2, ![a, k]⟩ : Shape).Idx → EReal) (w : (⟨2, ![k, n]⟩ : Shape).Idx → EReal)
    (b : (⟨2, ![1, n]⟩ : Shape).Idx → EReal) (p : Fin a) (q : Fin n) : EReal :=
  (∑ j : Fin k, x (ix2 p j) * w (ix2 j q)) + b (ix2 (0 : Fin 1) q)

/-- `x · w + b` as one array. -/
def dense (x : (⟨2, ![a, k]⟩ : Shape).Idx → EReal) (w : (⟨2, ![k, n]⟩ : Shape).Idx → EReal)
    (b : (⟨2, ![1, n]⟩ : Shape).Idx → EReal) : (⟨2, ![a, n]⟩ : Shape).Idx → EReal :=
  fun i => denseAt x w b (i 0) (i 1)

/-- Entry (p, q) of `x₁ · w[0:k₁] + x₂ · w[k₁:k] + b`. -/
def dense2At (hk : k1 + k2 = k) (x1 : (⟨2, ![a, k1]⟩ : Shape).Idx → EReal) (x2 : (⟨2, ![a, k2]⟩ : Shape).Idx → EReal)
    (w : (⟨2, ![k, n]⟩ : Shape).Idx → EReal) (b : (⟨2, ![1, n]⟩ : Shape).Idx → EReal) (p : Fin a) (q : Fin n) : EReal :=
  ((∑ j : Fin k1, x1 (ix2 p j) * w (ix2 (⟨j.val, by have := j.isLt; omega⟩ : Fin k) q))
    + (∑ j : Fin k2, x2 (ix2 p j) * w (ix2 (⟨k1 + j.val, by have := j.isLt; omega⟩ : Fin k) q)))
    + b (ix2 (0 : Fin 1) q)

/-- `x₁ · w[0:k₁] + x₂ · w[k₁:k] + b` as one array. -/
def dense2 (hk : k1 + k2 = k) (x1 : (⟨2, ![a, k1]⟩ : Shape).Idx → EReal) (x2 : (⟨2, ![a, k2]⟩ : Shape).Idx → EReal)
    (w : (⟨2, ![k, n]⟩ : Shape).Idx → EReal) (b : (⟨2, ![1, n]⟩ : Shape).Idx → EReal) : (⟨2, ![a, n]⟩ : Shape).Idx → EReal :=
  fun i => dense2At hk x1 x2 w b (i 0) (i 1)

/-- Two entries of two dense layers agree when the rows, the columns and the bias entries they read agree. -/
theorem denseAt_congr {a' n' : ℕ} {x : (⟨2, ![a, k]⟩ : Shape).Idx → EReal} {w : (⟨2, ![k, n]⟩ : Shape).Idx → EReal}
    {b : (⟨2, ![1, n]⟩ : Shape).Idx → EReal} {x' : (⟨2, ![a', k]⟩ : Shape).Idx → EReal} {w' : (⟨2, ![k, n']⟩ : Shape).Idx → EReal}
    {b' : (⟨2, ![1, n']⟩ : Shape).Idx → EReal} {p : Fin a} {q : Fin n} {p' : Fin a'} {q' : Fin n'}
    (hx : ∀ j : Fin k, x (ix2 p j) = x' (ix2 p' j)) (hw : ∀ j : Fin k, w (ix2 j q) = w' (ix2 j q'))
    (hb : b (ix2 (0 : Fin 1) q) = b' (ix2 (0 : Fin 1) q')) : denseAt x w b p q = denseAt x' w' b' p' q' := by
  unfold denseAt
  rw [hb]
  exact congrArg (· + _) (Finset.sum_congr rfl fun j _ => by rw [hx j, hw j])

/-- The same for a split layer; the weight block may be a window of `K'` rows' worth of a larger array. -/
theorem dense2At_congr {a' n' : ℕ} (hk : k1 + k2 = k) {x1 : (⟨2, ![a, k1]⟩ : Shape).Idx → EReal} {x2 : (⟨2, ![a, k2]⟩ : Shape).Idx → EReal}
    {w : (⟨2, ![k, n]⟩ : Shape).Idx → EReal} {b : (⟨2, ![1, n]⟩ : Shape).Idx → EReal}
    {x1' : (⟨2, ![a', k1]⟩ : Shape).Idx → EReal} {x2' : (⟨2, ![a', k2]⟩ : Shape).Idx → EReal}
    {w' : (⟨2, ![k, n']⟩ : Shape).Idx → EReal} {b' : (⟨2, ![1, n']⟩ : Shape).Idx → EReal}
    {p : Fin a} {q : Fin n} {p' : Fin a'} {q' : Fin n'}
    (hx1 : ∀ j : Fin k1, x1 (ix2 p j) = x1' (ix2 p' j)) (hx2 : ∀ j : Fin k2, x2 (ix2 p j) = x2' (ix2 p' j))
    (hw : ∀ j : Fin k, w (ix2 j q) = w' (ix2 j q'))
    (hb : b (ix2 (0 : Fin 1) q) = b' (ix2 (0 : Fin 1) q')) : dense2At hk x1 x2 w b p q = dense2At hk x1' x2' w' b' p' q' := by
  unfold dense2At
  rw [hb]
  refine congrArg (· + _) (congrArg₂ (· + ·) (Finset.sum_congr rfl fun j _ => ?_) (Finset.sum_congr rfl fun j _ => ?_))
  · rw [hx1 j, hw]
  · rw [hx2 j, hw]

/-! ## What the kernel computes at an entry -/

/-- A product into the zero accumulator plus the broadcast bias row, at (p, q). -/
theorem kernel_dense {d : DotDims ⟨2, ![a, k]⟩ ⟨2, ![k, n]⟩ ⟨2, ![a, n]⟩} (hd : RowsTimesMat d)
    (x : FVec Ideal ⟨2, ![a, k]⟩ .bf16) (w : FVec Ideal ⟨2, ![k, n]⟩ .bf16) (b : FVec Ideal ⟨2, ![1, n]⟩ .f32)
    (hb : (⟨2, ![1, n]⟩ : Shape).Broadcasts ⟨2, ![a, n]⟩) (p : Fin a) (q : Fin n) :
    addf (matmul d none x w (constant (F := Ideal) ⟨2, ![a, n]⟩ .f32 0x00000000#32)) (broadcastTo ⟨2, ![a, n]⟩ b hb) (ix2 p q)
      = denseAt x w b p q :=
  congrArg₂ (· + ·) (matmul_rows hd x w p q) (broadcastTo_1b_ab_apply b hb p q)

/-- Two products into zero accumulators, on the rows of the weight block below `k₁` and from `k₁` on, added, plus the
    broadcast bias row, at (p, q). -/
theorem kernel_dense2 (hk : k1 + k2 = k) {d1 : DotDims ⟨2, ![a, k1]⟩ ⟨2, ![k1, n]⟩ ⟨2, ![a, n]⟩} (hd1 : RowsTimesMat d1)
    {d2 : DotDims ⟨2, ![a, k2]⟩ ⟨2, ![k2, n]⟩ ⟨2, ![a, n]⟩} (hd2 : RowsTimesMat d2)
    (x1 : FVec Ideal ⟨2, ![a, k1]⟩ .bf16) (x2 : FVec Ideal ⟨2, ![a, k2]⟩ .bf16) (w : FVec Ideal ⟨2, ![k, n]⟩ .bf16)
    (b : FVec Ideal ⟨2, ![1, n]⟩ .f32)
    (h1 : (⟨2, ![k, n]⟩ : Shape).Slices ![0, 0] ⟨2, ![k1, n]⟩) (h2 : (⟨2, ![k, n]⟩ : Shape).Slices ![k1, 0] ⟨2, ![k2, n]⟩)
    (hb : (⟨2, ![1, n]⟩ : Shape).Broadcasts ⟨2, ![a, n]⟩) (p : Fin a) (q : Fin n) :
    addf (addf (matmul d1 none x1 (extractStridedSlice ⟨2, ![k1, n]⟩ ![0, 0] w h1) (constant (F := Ideal) ⟨2, ![a, n]⟩ .f32 0x00000000#32))
        (matmul d2 none x2 (extractStridedSlice ⟨2, ![k2, n]⟩ ![k1, 0] w h2) (constant (F := Ideal) ⟨2, ![a, n]⟩ .f32 0x00000000#32)))
      (broadcastTo ⟨2, ![a, n]⟩ b hb) (ix2 p q)
      = dense2At hk x1 x2 w b p q := by
  refine congrArg₂ (· + ·) (congrArg₂ (· + ·) ((matmul_rows hd1 x1 _ p q).trans ?_) ((matmul_rows hd2 x2 _ p q).trans ?_))
    (broadcastTo_1b_ab_apply b hb p q)
  · exact Finset.sum_congr rfl fun j _ => congrArg (x1 (ix2 p j) * ·)
      (slice2_axis0_apply 0 w h1 j q ⟨j.val, by have := j.isLt; omega⟩ (Nat.zero_add _).symm)
  · exact Finset.sum_congr rfl fun j _ => congrArg (x2 (ix2 p j) * ·)
      (slice2_axis0_apply k1 w h2 j q ⟨k1 + j.val, by have := j.isLt; omega⟩ rfl)

/-! ## What the reference computes at an entry -/

/-- The host's product plus the bias vector spread as a row and then down the rows, at (p, q). -/
theorem ref_dense {d : DotDims ⟨2, ![a, k]⟩ ⟨2, ![k, n]⟩ ⟨2, ![a, n]⟩} (hd : RowsTimesMat d)
    (x : FVec Ideal ⟨2, ![a, k]⟩ .f32) (w : FVec Ideal ⟨2, ![k, n]⟩ .f32) (b : FVec Ideal ⟨2, ![1, n]⟩ .f32)
    (h2 : (⟨2, ![1, n]⟩ : Shape).BroadcastsInDim ⟨2, ![a, n]⟩ (![0, 1] : Fin 2 → Fin 2)) (p : Fin a) (q : Fin n) :
    addf (Host.dotGeneral d none x w) (broadcastInDim ⟨2, ![a, n]⟩ (![0, 1] : Fin 2 → Fin 2) h2 b) (ix2 p q) = denseAt x w b p q :=
  congrArg₂ (· + ·) (dotGeneral_rows hd x w p q) (row_to_mat_apply b h2 p q)

/-- A sum over the first `k₁ + k₂` naturals splits into its first `k₁` and its last `k₂` terms. -/
theorem sum_split (hk : k1 + k2 = k) (f : Fin k → EReal) :
    ∑ j : Fin k, f j = (∑ j : Fin k1, f ⟨j.val, by have := j.isLt; omega⟩) + ∑ j : Fin k2, f ⟨k1 + j.val, by have := j.isLt; omega⟩ := by
  subst hk
  exact Fin.sum_univ_add f

/-- The host's ONE product over the concatenation of `x₁` and `x₂` along the columns, plus the bias, at (p, q): the
    split layer's entry. -/
theorem ref_dense2 (hk : k1 + k2 = k) {d : DotDims ⟨2, ![a, k]⟩ ⟨2, ![k, n]⟩ ⟨2, ![a, n]⟩} (hd : RowsTimesMat d)
    (x1 : FVec Ideal ⟨2, ![a, k1]⟩ .f32) (x2 : FVec Ideal ⟨2, ![a, k2]⟩ .f32) (w : FVec Ideal ⟨2, ![k, n]⟩ .f32)
    (b : FVec Ideal ⟨2, ![1, n]⟩ .f32)
    (hc : Shape.Concatenates [(⟨2, ![a, k1]⟩ : Shape), ⟨2, ![a, k2]⟩] ⟨2, ![a, k]⟩ 1)
    (h2 : (⟨2, ![1, n]⟩ : Shape).BroadcastsInDim ⟨2, ![a, n]⟩ (![0, 1] : Fin 2 → Fin 2)) (p : Fin a) (q : Fin n) :
    addf (Host.dotGeneral d none (concatenate ⟨2, ![a, k]⟩ 1 [⟨⟨2, ![a, k1]⟩, x1⟩, ⟨⟨2, ![a, k2]⟩, x2⟩] hc) w)
      (broadcastInDim ⟨2, ![a, n]⟩ (![0, 1] : Fin 2 → Fin 2) h2 b) (ix2 p q) = dense2At hk x1 x2 w b p q := by
  refine congrArg₂ (· + ·) ((dotGeneral_rows hd _ w p q).trans ((sum_split hk _).trans ?_)) (row_to_mat_apply b h2 p q)
  refine congrArg₂ (· + ·) (Finset.sum_congr rfl fun j _ => congrArg (· * _) ?_) (Finset.sum_congr rfl fun j _ => congrArg (· * _) ?_)
  · refine concatenate_pair_apply_left (t := ⟨2, ![a, k]⟩) (1 : Fin 2) x1 x2 hc _ rfl (ix2 p j) fun ax => ?_
    match ax with
    | ⟨0, _⟩ => rfl
    | ⟨1, _⟩ => rfl
  · refine concatenate_pair_apply_right (t := ⟨2, ![a, k]⟩) (1 : Fin 2) x1 x2 hc _ rfl rfl (ix2 p j) (fun ax hax => ?_) ?_
    · match ax with
      | ⟨0, _⟩ => rfl
      | ⟨1, _⟩ => exact absurd rfl hax
    · show j.val + k1 = k1 + j.val
      omega

/-- The bias vector spread as a row is the bias vector reshaped to a row. -/
theorem bias_row_eq (bv : (⟨1, ![n]⟩ : Shape).Idx → EReal)
    (h1 : (⟨1, ![n]⟩ : Shape).BroadcastsInDim ⟨2, ![1, n]⟩ (![1] : Fin 1 → Fin 2))
    (hs : (⟨1, ![n]⟩ : Shape).ShapeCasts ⟨2, ![1, n]⟩) :
    broadcastInDim ⟨2, ![1, n]⟩ (![1] : Fin 1 → Fin 2) h1 bv = shapeCast ⟨2, ![1, n]⟩ bv hs := by
  funext i
  rw [eq_ix2 i]
  exact (vec_to_row_apply bv h1 _ _).trans (shapeCast_a_1a_apply bv hs _ _).symm

end Cert.LibDenseLayers

end
-- ==== Proof.Mlp.lean ====
/-
  The two-layer network this certificate is about, as a function of whole arrays over the extended reals, entry by entry.

  A row of the input comes in two parts of 64 columns each: the mean of the incoming edge features (`x₁`) and the node's own
  features (`x₂`). The hidden layer is  h(p, j) = max(Σ_{k<64} x₁(p,k)·w₁(k,j) + Σ_{k<64} x₂(p,k)·w₁(64+k,j) + b₁(j), 0),
  and the result is  out(p, q) = Σ_{j<256} h(p,j)·w₂(j,q) + b₂(q).
  Entry (p, q) reads only row p of `x₁` and `x₂`, so a block of rows of the result is the same network on that block of rows.
  The hidden layer is also written with the two halves of `w₁` given as two separate [64, 256] arrays (as a program that
  was handed the halves computes it); the two forms agree when the halves are the rows below 64 and from 64 on.
-/
import proofs.«103879_j74234214744860_2_alg».proof.Proof.LibDenseLayers

noncomputable section

namespace Cert.Mlp

open Idealize.ShloMosaic Idealize.ShloMosaic.ValueIdx Cert.LibDenseLayers

variable {a a' : ℕ}

/-- The f32 zero word read as an extended real; both programs clamp the hidden layer against this same word, so it is
    never evaluated. -/
abbrev zero : EReal := (FloatOps.ofBits (F := Ideal) .f32 0x00000000#32 : Ideal .f32)

/-- A bias vector [n] laid out as the one row [1, n]. -/
def rowOf {n : ℕ} (b : (⟨1, ![n]⟩ : Shape).Idx → EReal) : (⟨2, ![1, n]⟩ : Shape).Idx → EReal :=
  fun i => b (ix1 (i 1))

/-- Entry (p, j) of the hidden layer: the split dense layer clamped below at zero. -/
def hiddenAt (x1 x2 : (⟨2, ![a, 64]⟩ : Shape).Idx → EReal) (w1 : (⟨2, ![128, 256]⟩ : Shape).Idx → EReal)
    (b1 : (⟨2, ![1, 256]⟩ : Shape).Idx → EReal) (p : Fin a) (j : Fin 256) : EReal :=
  max (dense2At (k1 := 64) (k2 := 64) (k := 128) rfl x1 x2 w1 b1 p j) zero

/-- The hidden layer as one array. -/
def hidden (x1 x2 : (⟨2, ![a, 64]⟩ : Shape).Idx → EReal) (w1 : (⟨2, ![128, 256]⟩ : Shape).Idx → EReal)
    (b1 : (⟨2, ![1, 256]⟩ : Shape).Idx → EReal) : (⟨2, ![a, 256]⟩ : Shape).Idx → EReal :=
  fun i => hiddenAt x1 x2 w1 b1 (i 0) (i 1)

/-- Entry (p, q) of the network's result. -/
def mlpAt (x1 x2 : (⟨2, ![a, 64]⟩ : Shape).Idx → EReal) (w1 : (⟨2, ![128, 256]⟩ : Shape).Idx → EReal)
    (b1 : (⟨2, ![1, 256]⟩ : Shape).Idx → EReal) (w2 : (⟨2, ![256, 64]⟩ : Shape).Idx → EReal)
    (b2 : (⟨2, ![1, 64]⟩ : Shape).Idx → EReal) (p : Fin a) (q : Fin 64) : EReal :=
  denseAt (hidden x1 x2 w1 b1) w2 b2 p q

/-- The network's result as one array. -/
def mlp (x1 x2 : (⟨2, ![a, 64]⟩ : Shape).Idx → EReal) (w1 : (⟨2, ![128, 256]⟩ : Shape).Idx → EReal)
    (b1 : (⟨2, ![1, 256]⟩ : Shape).Idx → EReal) (w2 : (⟨2, ![256, 64]⟩ : Shape).Idx → EReal)
    (b2 : (⟨2, ![1, 64]⟩ : Shape).Idx → EReal) : (⟨2, ![a, 64]⟩ : Shape).Idx → EReal :=
  fun i => mlpAt x1 x2 w1 b1 w2 b2 (i 0) (i 1)

/-- The same entry with the two halves of the first weight matrix, and every other operand, given as arrays of their own:
    Σ_j max(Σ_k x₁(p,k)·wₑ(k,j) + Σ_k x₂(p,k)·wₙ(k,j) + b₁(j), 0) · w₂(j,q) + b₂(q). -/
def splitAt (x1 x2 : (⟨2, ![a, 64]⟩ : Shape).Idx → EReal) (we wn : (⟨2, ![64, 256]⟩ : Shape).Idx → EReal)
    (b1 : (⟨2, ![1, 256]⟩ : Shape).Idx → EReal) (w2 : (⟨2, ![256, 64]⟩ : Shape).Idx → EReal)
    (b2 : (⟨2, ![1, 64]⟩ : Shape).Idx → EReal) (p : Fin a) (q : Fin 64) : EReal :=
  (∑ j : Fin 256, max (((∑ k : Fin 64, x1 (ix2 p k) * we (ix2 k j)) + (∑ k : Fin 64, x2 (ix2 p k) * wn (ix2 k j)))
      + b1 (ix2 (0 : Fin 1) j)) zero * w2 (ix2 j q)) + b2 (ix2 (0 : Fin 1) q)

/-- The form with separate halves is the network's entry, at rows that agree, when the halves are the rows of the first
    weight matrix below 64 and from 64 on and the other operands agree entry by entry. -/
theorem splitAt_eq_mlpAt {x1 x2 : (⟨2, ![a, 64]⟩ : Shape).Idx → EReal} {we wn : (⟨2, ![64, 256]⟩ : Shape).Idx → EReal}
    {b1 : (⟨2, ![1, 256]⟩ : Shape).Idx → EReal} {w2 : (⟨2, ![256, 64]⟩ : Shape).Idx → EReal}
    {b2 : (⟨2, ![1, 64]⟩ : Shape).Idx → EReal}
    {X1 X2 : (⟨2, ![a', 64]⟩ : Shape).Idx → EReal} {W1 : (⟨2, ![128, 256]⟩ : Shape).Idx → EReal}
    {B1 : (⟨2, ![1, 256]⟩ : Shape).Idx → EReal} {W2 : (⟨2, ![256, 64]⟩ : Shape).Idx → EReal}
    {B2 : (⟨2, ![1, 64]⟩ : Shape).Idx → EReal} {p : Fin a} {p' : Fin a'} {q : Fin 64}
    (h1 : ∀ k : Fin 64, x1 (ix2 p k) = X1 (ix2 p' k)) (h2 : ∀ k : Fin 64, x2 (ix2 p k) = X2 (ix2 p' k))
    (he : ∀ (k : Fin 64) (j : Fin 256), we (ix2 k j) = W1 (ix2 (⟨k.val, by have := k.isLt; omega⟩ : Fin 128) j))
    (hn : ∀ (k : Fin 64) (j : Fin 256), wn (ix2 k j) = W1 (ix2 (⟨64 + k.val, by have := k.isLt; omega⟩ : Fin 128) j))
    (hb1 : ∀ j : Fin 256, b1 (ix2 (0 : Fin 1) j) = B1 (ix2 (0 : Fin 1) j))
    (hw2 : ∀ (j : Fin 256) (q : Fin 64), w2 (ix2 j q) = W2 (ix2 j q))
    (hb2 : ∀ q : Fin 64, b2 (ix2 (0 : Fin 1) q) = B2 (ix2 (0 : Fin 1) q)) :
    splitAt x1 x2 we wn b1 w2 b2 p q = mlpAt X1 X2 W1 B1 W2 B2 p' q := by
  unfold splitAt mlpAt denseAt
  rw [hb2 q]
  refine congrArg (· + _) (Finset.sum_congr rfl fun j _ => ?_)
  rw [hw2 j q]
  refine congrArg (· * _) ?_
  show _ = hiddenAt X1 X2 W1 B1 p' j
  unfold hiddenAt dense2At
  rw [hb1 j]
  refine congrArg (max · zero) (congrArg (· + _) (congrArg₂ (· + ·) (Finset.sum_congr rfl fun k _ => ?_)
    (Finset.sum_congr rfl fun k _ => ?_)))
  · rw [h1 k, he k j]
  · rw [h2 k, hn k j]

/-- The hidden layer at an entry given by its coordinates. -/
theorem hidden_ix2 (x1 x2 : (⟨2, ![a, 64]⟩ : Shape).Idx → EReal) (w1 : (⟨2, ![128, 256]⟩ : Shape).Idx → EReal)
    (b1 : (⟨2, ![1, 256]⟩ : Shape).Idx → EReal) (p : Fin a) (j : Fin 256) :
    hidden x1 x2 w1 b1 (ix2 p j) = max (dense2At (k1 := 64) (k2 := 64) (k := 128) rfl x1 x2 w1 b1 p j) zero := by
  unfold hidden hiddenAt
  rfl

/-- The network's result at an entry given by its coordinates. -/
theorem mlp_ix2 (x1 x2 : (⟨2, ![a, 64]⟩ : Shape).Idx → EReal) (w1 : (⟨2, ![128, 256]⟩ : Shape).Idx → EReal)
    (b1 : (⟨2, ![1, 256]⟩ : Shape).Idx → EReal) (w2 : (⟨2, ![256, 64]⟩ : Shape).Idx → EReal)
    (b2 : (⟨2, ![1, 64]⟩ : Shape).Idx → EReal) (p : Fin a) (q : Fin 64) :
    mlp x1 x2 w1 b1 w2 b2 (ix2 p q) = mlpAt x1 x2 w1 b1 w2 b2 p q := by
  unfold mlp
  rfl

/-- The network on the aggregated features `agg`, the node features and the parameters as the programs receive them: both
    bias vectors laid out as rows. -/
def net (agg node : (⟨2, ![50000, 64]⟩ : Shape).Idx → EReal) (w1 : (⟨2, ![128, 256]⟩ : Shape).Idx → EReal)
    (b1 : (⟨1, ![256]⟩ : Shape).Idx → EReal) (w2 : (⟨2, ![256, 64]⟩ : Shape).Idx → EReal)
    (b2 : (⟨1, ![64]⟩ : Shape).Idx → EReal) : (⟨2, ![50000, 64]⟩ : Shape).Idx → EReal :=
  mlp agg node w1 (rowOf b1) w2 (rowOf b2)

/-- Its entry (p, q), as the second dense layer over the hidden layer. -/
theorem net_ix2 (agg node : (⟨2, ![50000, 64]⟩ : Shape).Idx → EReal) (w1 : (⟨2, ![128, 256]⟩ : Shape).Idx → EReal)
    (b1 : (⟨1, ![256]⟩ : Shape).Idx → EReal) (w2 : (⟨2, ![256, 64]⟩ : Shape).Idx → EReal)
    (b2 : (⟨1, ![64]⟩ : Shape).Idx → EReal) (p : Fin 50000) (q : Fin 64) :
    net agg node w1 b1 w2 b2 (ix2 p q) = mlpAt agg node w1 (rowOf b1) w2 (rowOf b2) p q := by
  unfold net
  exact mlp_ix2 _ _ _ _ _ _ p q

end Cert.Mlp

end
-- ==== Proof.KernelBlock.lean ====
/-
  What the kernel's body stores, entry by entry: on a block of 5000 rows it computes the two-layer network of that block of
  rows, with the two halves of the first weight matrix as separate operands. Each matrix product runs into a zero
  accumulator, so at the ideal values it is the plain sum over the contracted coordinate; the changes of float format are
  the identity there; the bias rows are broadcast down the rows.
-/
import proofs.«103879_j74234214744860_2_alg».proof.Proof.Gen.KernelIdeal.Frame
import proofs.«103879_j74234214744860_2_alg».proof.Proof.Mlp

noncomputable section

namespace Cert.KernelBlock

open Idealize.ShloMosaic Idealize.ShloMosaic.ValueIdx Cert.KernelIdeal Cert.KernelIdeal.Gen
open Cert.LibMatRows Cert.LibDenseLayers Cert.Mlp

/-- The first layer's dimension record is a plain [5000, 64] × [64, 256] product. -/
theorem rows_layer1 : RowsTimesMat dot_S5000x64_S64x256_S5000x256_1_0_0_1_n_n where
  rank := rfl
  size := rfl
  l0 := fun i q => by
    unfold DotDims.lhsIdx
    rw [dif_neg (show ¬(0 : Fin S5000x64.rank) ∈ dot_S5000x64_S64x256_S5000x256_1_0_0_1_n_n.lhsBatch by decide),
      dif_pos (show (0 : Fin S5000x64.rank) ∈ dot_S5000x64_S64x256_S5000x256_1_0_0_1_n_n.lhsNonContracting by decide)]
    rfl
  l1 := fun i q => dot_S5000x64_S64x256_S5000x256_1_0_0_1_n_n.lhsIdx_val_of_single rfl i q
  r0 := fun i q => dot_S5000x64_S64x256_S5000x256_1_0_0_1_n_n.rhsIdx_val_of_single rfl i q
  r1 := fun i q => by
    unfold DotDims.rhsIdx
    rw [dif_neg (show ¬(1 : Fin S64x256.rank) ∈ dot_S5000x64_S64x256_S5000x256_1_0_0_1_n_n.rhsBatch by decide),
      dif_pos (show (1 : Fin S64x256.rank) ∈ dot_S5000x64_S64x256_S5000x256_1_0_0_1_n_n.rhsNonContracting by decide)]
    rfl

/-- The second layer's dimension record is a plain [5000, 256] × [256, 64] product. -/
theorem rows_layer2 : RowsTimesMat dot_S5000x256_S256x64_S5000x64_1_0_0_1_n_n where
  rank := rfl
  size := rfl
  l0 := fun i q => by
    unfold DotDims.lhsIdx
    rw [dif_neg (show ¬(0 : Fin S5000x256.rank) ∈ dot_S5000x256_S256x64_S5000x64_1_0_0_1_n_n.lhsBatch by decide),
      dif_pos (show (0 : Fin S5000x256.rank) ∈ dot_S5000x256_S256x64_S5000x64_1_0_0_1_n_n.lhsNonContracting by decide)]
    rfl
  l1 := fun i q => dot_S5000x256_S256x64_S5000x64_1_0_0_1_n_n.lhsIdx_val_of_single rfl i q
  r0 := fun i q => dot_S5000x256_S256x64_S5000x64_1_0_0_1_n_n.rhsIdx_val_of_single rfl i q
  r1 := fun i q => by
    unfold DotDims.rhsIdx
    rw [dif_neg (show ¬(1 : Fin S256x64.rank) ∈ dot_S5000x256_S256x64_S5000x64_1_0_0_1_n_n.rhsBatch by decide),
      dif_pos (show (1 : Fin S256x64.rank) ∈ dot_S5000x256_S256x64_S5000x64_1_0_0_1_n_n.rhsNonContracting by decide)]
    rfl

/-- Entry (p, q) of what the body stores: the network of the block's rows, the weight halves separate. -/
theorem pay_apply (x0 x1 : Vec Ideal S5000x64 .f32) (x2 x3 : Vec Ideal S64x256 .bf16) (x4 : Vec Ideal S1x256 .f32)
    (x5 : Vec Ideal S256x64 .bf16) (x6 : Vec Ideal S1x64 .f32) (p : Fin 5000) (q : Fin 64) :
    k0_pay1 (F := Ideal) x0 x1 x2 x3 x4 x5 x6 (ix2 p q) = splitAt x0 x1 x2 x3 x4 x5 x6 p q := by
  unfold k0_pay1
  refine (kernel_dense rows_layer2 _ _ _ _ p q).trans ?_
  unfold denseAt splitAt
  refine congrArg₂ (· + ·) (Finset.sum_congr rfl fun j _ => congrArg₂ (· * ·) ?_ ?_) ?_
  · -- the hidden layer at (p, j)
    show max _ _ = max _ zero
    refine congrArg₂ max ?_ rfl
    refine congrArg₂ (· + ·) (congrArg₂ (· + ·) ((matmul_rows rows_layer1 _ _ p j).trans ?_)
      ((matmul_rows rows_layer1 _ _ p j).trans ?_)) ((broadcastTo_1b_ab_apply _ _ p j).trans ?_)
    · exact Finset.sum_congr rfl fun k _ => congrArg₂ (· * ·) (congrFun (shapeCast_self x0 _) _) (congrFun (shapeCast_self x2 _) _)
    · exact Finset.sum_congr rfl fun k _ => congrArg₂ (· * ·) rfl (congrFun (shapeCast_self x3 _) _)
    · exact congrFun (shapeCast_self x4 _) _
  · exact congrFun (shapeCast_self x5 _) _
  · exact congrFun (shapeCast_self x6 _) _

theorem hz : (![0, 0] : Fin 2 → Nat) = fun _ => 0 := funext fun a => by fin_cases a <;> rfl

/-- What the body leaves in the output's buffer, entry by entry: one store of the whole block, so the buffer holds the
    stored value, the network of the block's rows. -/
theorem out_apply (x0 x1 : Vec Ideal S5000x64 .f32) (x2 x3 : Vec Ideal S64x256 .bf16) (x4 : Vec Ideal S1x256 .f32)
    (x5 : Vec Ideal S256x64 .bf16) (x6 : Vec Ideal S1x64 .f32) (p : Fin 5000) (q : Fin 64) :
    out0_7 (F := Ideal) x0 x1 x2 x3 x4 x5 x6 (ix2 p q) = splitAt x0 x1 x2 x3 x4 x5 x6 p q := by
  unfold out0_7
  rw [View.canon_unit_zero hz]
  simp only [View.ld_unit_zero (S := S5000x64) hz, View.ld_unit_zero (S := S64x256) hz, View.ld_unit_zero (S := S1x256) hz,
    View.ld_unit_zero (S := S256x64) hz, View.ld_unit_zero (S := S1x64) hz]
  exact pay_apply x0 x1 x2 x3 x4 x5 x6 p q

end Cert.KernelBlock

end
-- ==== Proof.RegionEntry.lean ====
/-
  What the kernel's region finds in each window's array: the host operations in front of it. The aggregated edge features
  are the segment mean, the very term the reference computes; the two weight operands of the first layer are the rows of
  the first weight matrix below 64 and from 64 on; the second layer's weights are the second weight matrix; the two bias
  operands are the bias vectors laid out as rows. (The changes of float format in front of the region are the identity at
  the ideal values.)
-/
import proofs.«103879_j74234214744860_2_alg».proof.Proof.Gen.KernelIdeal.Frame
import proofs.«103879_j74234214744860_2_alg».proof.Proof.Gen.ReferenceIdeal.Read
import proofs.«103879_j74234214744860_2_alg».proof.Proof.Mlp
import Idealize.ShloMosaic.Lib.StableHlo.Run
import Idealize.ShloMosaic.Lib.ValueLayout

noncomputable section

namespace Cert.RegionEntry

open Idealize.ShloMosaic Idealize.ShloMosaic.TcCoe Idealize.SL.Sem Idealize.ShloMosaic.ValueIdx
open Cert.KernelIdeal Cert.KernelIdeal.Gen Cert.Mlp

variable (m : (ℓ : Loc nD τ sig) → Buf (Elt Ideal) ℓ)

/-- The aggregated edge features are the reference's segment mean of the edge features by receiver. -/
theorem agg_eq (c : Dev nD) :
    (V m c main_v11 : S50000x64.Idx → EReal)
      = Cert.ReferenceIdeal.Read.val_main_v11 (F := Ideal) (m ((c : Thread nD τ).loc main_arg1)) (m ((c : Thread nD τ).loc main_arg2)) := by
  dsimp only [V, hostOps0]
  after_results
  rfl

/-- The first layer's first weight operand is rows 0…63 of the first weight matrix. -/
theorem w1e_apply (c : Dev nD) (k : Fin 64) (j : Fin 256) :
    (V m c main_v13 : S64x256.Idx → EReal) (ix2 k j)
      = (m ((c : Thread nD τ).loc main_arg3) : S128x256.Idx → EReal) (ix2 (⟨k.val, by have := k.isLt; omega⟩ : Fin 128) j) := by
  have e : (V m c main_v13 : FVec Ideal S64x256 .bf16)
      = truncf (F := Ideal) .bf16 (extractStridedSlice S64x256 ![0, 0] (m ((c : Thread nD τ).loc main_arg3) : FVec Ideal S128x256 .f32) slices_S128x256_S64x256_0_0) bitsLt_bf16_f32 := by
    dsimp only [V, hostOps0]
    after_results
  rw [e]
  exact slice2_axis0_apply 0 _ slices_S128x256_S64x256_0_0 k j _ (Nat.zero_add _).symm

/-- The first layer's second weight operand is rows 64…127 of the first weight matrix. -/
theorem w1n_apply (c : Dev nD) (k : Fin 64) (j : Fin 256) :
    (V m c main_v15 : S64x256.Idx → EReal) (ix2 k j)
      = (m ((c : Thread nD τ).loc main_arg3) : S128x256.Idx → EReal) (ix2 (⟨64 + k.val, by have := k.isLt; omega⟩ : Fin 128) j) := by
  have e : (V m c main_v15 : FVec Ideal S64x256 .bf16)
      = truncf (F := Ideal) .bf16 (extractStridedSlice S64x256 ![64, 0] (m ((c : Thread nD τ).loc main_arg3) : FVec Ideal S128x256 .f32) slices_S128x256_S64x256_64_0) bitsLt_bf16_f32 := by
    dsimp only [V, hostOps0]
    after_results
  rw [e]
  exact slice2_axis0_apply 64 _ slices_S128x256_S64x256_64_0 k j _ rfl

/-- The second layer's weight operand is the second weight matrix. -/
theorem w2_eq (c : Dev nD) :
    (V m c main_v16 : S256x64.Idx → EReal) = (m ((c : Thread nD τ).loc main_arg5) : S256x64.Idx → EReal) := by
  dsimp only [V, hostOps0]
  after_results
  rfl

/-- The first layer's bias operand is the first bias vector as a row. -/
theorem b1_apply (c : Dev nD) (j : Fin 256) :
    (V m c main_v17 : S1x256.Idx → EReal) (ix2 (0 : Fin 1) j)
      = rowOf (m ((c : Thread nD τ).loc main_arg4) : S256.Idx → EReal) (ix2 (0 : Fin 1) j) := by
  have e : (V m c main_v17 : S1x256.Idx → EReal)
      = shapeCast S1x256 (m ((c : Thread nD τ).loc main_arg4) : S256.Idx → EReal) shapeCasts_S256_S1x256 := by
    dsimp only [V, hostOps0]
    after_results
    rfl
  rw [e]
  exact shapeCast_a_1a_apply _ shapeCasts_S256_S1x256 (0 : Fin 1) j

/-- The second layer's bias operand is the second bias vector as a row. -/
theorem b2_apply (c : Dev nD) (q : Fin 64) :
    (V m c main_v18 : S1x64.Idx → EReal) (ix2 (0 : Fin 1) q)
      = rowOf (m ((c : Thread nD τ).loc main_arg6) : S64.Idx → EReal) (ix2 (0 : Fin 1) q) := by
  have e : (V m c main_v18 : S1x64.Idx → EReal)
      = shapeCast S1x64 (m ((c : Thread nD τ).loc main_arg6) : S64.Idx → EReal) shapeCasts_S64_S1x64 := by
    dsimp only [V, hostOps0]
    after_results
    rfl
  rw [e]
  exact shapeCast_a_1a_apply _ shapeCasts_S64_S1x64 (0 : Fin 1) q

end Cert.RegionEntry

end
-- ==== Proof.KernelValue.lean ====
/-
  From blocks to the array. The grid has ten points; point t works on rows 5000·t … 5000·t + 4999: it reads those rows of the
  aggregated edge features and of the node features, reads every parameter whole, and writes those rows of the result.
  What it writes is the network of its rows, which is those rows of the network of the whole arrays; the ten row blocks
  cover the result, so after the run the result array is the network of the arguments.
-/
import proofs.«103879_j74234214744860_2_alg».proof.Proof.Gen.KernelIdeal.Value
import proofs.«103879_j74234214744860_2_alg».proof.Proof.KernelBlock
import proofs.«103879_j74234214744860_2_alg».proof.Proof.RegionEntry

noncomputable section

namespace Cert.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Mlp

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the two row-blocked inputs and the output sit at block (t, 0); every parameter
    window stays at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- The network of the arguments: what the result array ends holding. -/
def result (c : Dev nD) : S50000x64.Idx → EReal :=
  net (Cert.ReferenceIdeal.Read.val_main_v11 (F := Ideal) (m ((c : Thread nD τ).loc main_arg1)) (m ((c : Thread nD τ).loc main_arg2)))
    (m ((c : Thread nD τ).loc main_arg0)) (m ((c : Thread nD τ).loc main_arg3)) (m ((c : Thread nD τ).loc main_arg4))
    (m ((c : Thread nD τ).loc main_arg5)) (m ((c : Thread nD τ).loc main_arg6))

/-- `result` spelt out. -/
theorem result_def (c : Dev nD) :
    result m c = net (Cert.ReferenceIdeal.Read.val_main_v11 (F := Ideal) (m ((c : Thread nD τ).loc main_arg1)) (m ((c : Thread nD τ).loc main_arg2)))
      (m ((c : Thread nD τ).loc main_arg0)) (m ((c : Thread nD τ).loc main_arg3)) (m ((c : Thread nD τ).loc main_arg4))
      (m ((c : Thread nD τ).loc main_arg5)) (m ((c : Thread nD τ).loc main_arg6)) := by
  unfold result
  rfl

/-- Its entry (P, q), as the network's entry on row P. -/
theorem result_ix2 (c : Dev nD) (P : Fin 50000) (q : Fin 64) :
    result m c (ix2 P q)
      = mlpAt (Cert.ReferenceIdeal.Read.val_main_v11 (F := Ideal) (m ((c : Thread nD τ).loc main_arg1)) (m ((c : Thread nD τ).loc main_arg2)))
          (m ((c : Thread nD τ).loc main_arg0)) (m ((c : Thread nD τ).loc main_arg3)) (rowOf (m ((c : Thread nD τ).loc main_arg4)))
          (m ((c : Thread nD τ).loc main_arg5)) (rowOf (m ((c : Thread nD τ).loc main_arg6))) P q := by
  unfold result
  exact net_ix2 _ _ _ _ _ _ P q

/-! ## Each window's block at a point, as entries of its array

Stated for ANY contents of the window's array, then read at the contents the region finds. -/

/-- Row p of the block of window 0 (a row-blocked [50000, 64] array) at point t is row 5000·t + p of the array. -/
theorem rows_read0 (A : S50000x64.Idx → EReal) (t : Fin cfg0.N) (p : Fin 5000) (k : Fin 64) (P : Fin 50000) (hP : P.val = 5000 * t.val + p.val) :
    ((cfg0.win 0).blk t).view.read (Elt Ideal) A (ix2 p k) = A (ix2 P k) := by
  rw [View.read_apply]
  refine congrArg A (funext fun a => Fin.ext ?_)
  match a with
  | ⟨0, _⟩ => show win0_0.index t (0 : Fin 2) * 5000 + 1 * p.val = P.val; rw [(idx_facts t).1.1, hP]; omega
  | ⟨1, _⟩ => show win0_0.index t (1 : Fin 2) * 64 + 1 * k.val = k.val; rw [(idx_facts t).1.2]; omega

/-- The same for window 1. -/
theorem rows_read1 (A : S50000x64.Idx → EReal) (t : Fin cfg0.N) (p : Fin 5000) (k : Fin 64) (P : Fin 50000) (hP : P.val = 5000 * t.val + p.val) :
    ((cfg0.win 1).blk t).view.read (Elt Ideal) A (ix2 p k) = A (ix2 P k) := by
  rw [View.read_apply]
  refine congrArg A (funext fun a => Fin.ext ?_)
  match a with
  | ⟨0, _⟩ => show win0_1.index t (0 : Fin 2) * 5000 + 1 * p.val = P.val; rw [(idx_facts t).2.1.1, hP]; omega
  | ⟨1, _⟩ => show win0_1.index t (1 : Fin 2) * 64 + 1 * k.val = k.val; rw [(idx_facts t).2.1.2]; omega

/-- Window 2's block at any point is its whole [64, 256] array. -/
theorem whole_read2 (A : S64x256.Idx → EReal) (t : Fin cfg0.N) (i0 : Fin 64) (i1 : Fin 256) :
    ((cfg0.win 2).blk t).view.read (Elt Ideal) A (ix2 i0 i1) = A (ix2 i0 i1) := by
  rw [View.read_apply]
  refine congrArg A (funext fun a => Fin.ext ?_)
  match a with
  | ⟨0, _⟩ => show win0_2.index t (0 : Fin 2) * 64 + 1 * i0.val = i0.val; rw [(idx_facts t).2.2.1.1]; omega
  | ⟨1, _⟩ => show win0_2.index t (1 : Fin 2) * 256 + 1 * i1.val = i1.val; rw [(idx_facts t).2.2.1.2]; omega

/-- Window 3's block at any point is its whole [64, 256] array. -/
theorem whole_read3 (A : S64x256.Idx → EReal) (t : Fin cfg0.N) (i0 : Fin 64) (i1 : Fin 256) :
    ((cfg0.win 3).blk t).view.read (Elt Ideal) A (ix2 i0 i1) = A (ix2 i0 i1) := by
  rw [View.read_apply]
  refine congrArg A (funext fun a => Fin.ext ?_)
  match a with
  | ⟨0, _⟩ => show win0_3.index t (0 : Fin 2) * 64 + 1 * i0.val = i0.val; rw [(idx_facts t).2.2.2.1.1]; omega
  | ⟨1, _⟩ => show win0_3.index t (1 : Fin 2) * 256 + 1 * i1.val = i1.val; rw [(idx_facts t).2.2.2.1.2]; omega

/-- Window 4's block at any point is its whole [1, 256] array. -/
theorem whole_read4 (A : S1x256.Idx → EReal) (t : Fin cfg0.N) (i0 : Fin 1) (i1 : Fin 256) :
    ((cfg0.win 4).blk t).view.read (Elt Ideal) A (ix2 i0 i1) = A (ix2 i0 i1) := by
  rw [View.read_apply]
  refine congrArg A (funext fun a => Fin.ext ?_)
  match a with
  | ⟨0, _⟩ => show win0_4.index t (0 : Fin 2) * 1 + 1 * i0.val = i0.val; rw [(idx_facts t).2.2.2.2.1.1]; omega
  | ⟨1, _⟩ => show win0_4.index t (1 : Fin 2) * 256 + 1 * i1.val = i1.val; rw [(idx_facts t).2.2.2.2.1.2]; omega

/-- Window 5's block at any point is its whole [256, 64] array. -/
theorem whole_read5 (A : S256x64.Idx → EReal) (t : Fin cfg0.N) (i0 : Fin 256) (i1 : Fin 64) :
    ((cfg0.win 5).blk t).view.read (Elt Ideal) A (ix2 i0 i1) = A (ix2 i0 i1) := by
  rw [View.read_apply]
  refine congrArg A (funext fun a => Fin.ext ?_)
  match a with
  | ⟨0, _⟩ => show win0_5.index t (0 : Fin 2) * 256 + 1 * i0.val = i0.val; rw [(idx_facts t).2.2.2.2.2.1.1]; omega
  | ⟨1, _⟩ => show win0_5.index t (1 : Fin 2) * 64 + 1 * i1.val = i1.val; rw [(idx_facts t).2.2.2.2.2.1.2]; omega

/-- Window 6's block at any point is its whole [1, 64] array. -/
theorem whole_read6 (A : S1x64.Idx → EReal) (t : Fin cfg0.N) (i0 : Fin 1) (i1 : Fin 64) :
    ((cfg0.win 6).blk t).view.read (Elt Ideal) A (ix2 i0 i1) = A (ix2 i0 i1) := by
  rw [View.read_apply]
  refine congrArg A (funext fun a => Fin.ext ?_)
  match a with
  | ⟨0, _⟩ => show win0_6.index t (0 : Fin 2) * 1 + 1 * i0.val = i0.val; rw [(idx_facts t).2.2.2.2.2.2.1.1]; omega
  | ⟨1, _⟩ => show win0_6.index t (1 : Fin 2) * 64 + 1 * i1.val = i1.val; rw [(idx_facts t).2.2.2.2.2.2.1.2]; omega

/-- The row of the whole arrays that row p of point t's blocks is. -/
def rowIdx (t : Fin cfg0.N) (p : Fin 5000) : Fin 50000 :=
  ⟨5000 * t.val + p.val, by have hN : cfg0.N = 10 := N_0; have := t.isLt; have := p.isLt; omega⟩

/-- Row p of the aggregated features' block at point t is row 5000·t + p of the segment mean. -/
theorem agg_rows (c : Dev nD) (t : Fin cfg0.N) (p : Fin 5000) (k : Fin 64) :
    (iblk m c 0 t : Vec Ideal S5000x64 .f32) (ix2 p k)
      = Cert.ReferenceIdeal.Read.val_main_v11 (F := Ideal) (m ((c : Thread nD τ).loc main_arg1)) (m ((c : Thread nD τ).loc main_arg2)) (ix2 (rowIdx t p) k) :=
  (rows_read0 (V m c main_v11) t p k (rowIdx t p) rfl).trans (congrFun (Cert.RegionEntry.agg_eq m c) _)

/-- Row p of the node features' block at point t is row 5000·t + p of the argument. -/
theorem node_rows (c : Dev nD) (t : Fin cfg0.N) (p : Fin 5000) (k : Fin 64) :
    (iblk m c 1 t : Vec Ideal S5000x64 .f32) (ix2 p k) = (m ((c : Thread nD τ).loc main_arg0) : S50000x64.Idx → EReal) (ix2 (rowIdx t p) k) :=
  (rows_read1 (V m c main_arg0) t p k (rowIdx t p) rfl).trans (congrFun (V_main_arg0 m c) _)

/-- The first weight operand's block at any point: rows 0…63 of the first weight matrix. -/
theorem w1e_block (c : Dev nD) (t : Fin cfg0.N) (k : Fin 64) (j : Fin 256) :
    (iblk m c 2 t : Vec Ideal S64x256 .bf16) (ix2 k j)
      = (m ((c : Thread nD τ).loc main_arg3) : S128x256.Idx → EReal) (ix2 (⟨k.val, by have := k.isLt; omega⟩ : Fin 128) j) :=
  (whole_read2 (V m c main_v13) t k j).trans (Cert.RegionEntry.w1e_apply m c k j)

/-- The second weight operand's block at any point: rows 64…127 of the first weight matrix. -/
theorem w1n_block (c : Dev nD) (t : Fin cfg0.N) (k : Fin 64) (j : Fin 256) :
    (iblk m c 3 t : Vec Ideal S64x256 .bf16) (ix2 k j)
      = (m ((c : Thread nD τ).loc main_arg3) : S128x256.Idx → EReal) (ix2 (⟨64 + k.val, by have := k.isLt; omega⟩ : Fin 128) j) :=
  (whole_read3 (V m c main_v15) t k j).trans (Cert.RegionEntry.w1n_apply m c k j)

/-- The first bias operand's block at any point: the first bias vector as a row. -/
theorem b1_block (c : Dev nD) (t : Fin cfg0.N) (j : Fin 256) :
    (iblk m c 4 t : Vec Ideal S1x256 .f32) (ix2 (0 : Fin 1) j) = rowOf (m ((c : Thread nD τ).loc main_arg4) : S256.Idx → EReal) (ix2 (0 : Fin 1) j) :=
  (whole_read4 (V m c main_v17) t (0 : Fin 1) j).trans (Cert.RegionEntry.b1_apply m c j)

/-- The second layer's weight block at any point: the second weight matrix. -/
theorem w2_block (c : Dev nD) (t : Fin cfg0.N) (j : Fin 256) (q : Fin 64) :
    (iblk m c 5 t : Vec Ideal S256x64 .bf16) (ix2 j q) = (m ((c : Thread nD τ).loc main_arg5) : S256x64.Idx → EReal) (ix2 j q) :=
  (whole_read5 (V m c main_v16) t j q).trans (congrFun (Cert.RegionEntry.w2_eq m c) _)

/-- The second bias operand's block at any point: the second bias vector as a row. -/
theorem b2_block (c : Dev nD) (t : Fin cfg0.N) (q : Fin 64) :
    (iblk m c 6 t : Vec Ideal S1x64 .f32) (ix2 (0 : Fin 1) q) = rowOf (m ((c : Thread nD τ).loc main_arg6) : S64.Idx → EReal) (ix2 (0 : Fin 1) q) :=
  (whole_read6 (V m c main_v18) t (0 : Fin 1) q).trans (Cert.RegionEntry.b2_apply m c q)

/-! ## What a point writes back -/

/-- Entry (p, q) of what the body leaves in the output's buffer at point t is entry (5000·t + p, q) of the network of the
    arguments: the network reads only that row of the two row-blocked inputs. -/
theorem out_rows (c : Dev nD) (t : Fin cfg0.N) (p : Fin 5000) (q : Fin 64) :
    out0_7 (F := Ideal) (iblk m c 0 t) (iblk m c 1 t) (iblk m c 2 t) (iblk m c 3 t) (iblk m c 4 t) (iblk m c 5 t) (iblk m c 6 t) (ix2 p q)
      = result m c (ix2 (rowIdx t p) q) :=
  ((Cert.KernelBlock.out_apply (iblk m c 0 t) (iblk m c 1 t) (iblk m c 2 t) (iblk m c 3 t) (iblk m c 4 t) (iblk m c 5 t) (iblk m c 6 t) p q).trans
    (splitAt_eq_mlpAt (fun k => agg_rows m c t p k) (fun k => node_rows m c t p k) (fun k j => w1e_block m c t k j)
      (fun k j => w1n_block m c t k j) (fun j => b1_block m c t j) (fun j q => w2_block m c t j q) (fun q => b2_block m c t q))).trans
    (result_ix2 m c (rowIdx t p) q).symm

/-- The same as one function on the block. -/
theorem out_rows_fun (c : Dev nD) (t : Fin cfg0.N) :
    out0_7 (F := Ideal) (iblk m c 0 t) (iblk m c 1 t) (iblk m c 2 t) (iblk m c 3 t) (iblk m c 4 t) (iblk m c 5 t) (iblk m c 6 t)
      = fun j : S5000x64.Idx => result m c (ix2 (rowIdx t (j 0)) (j 1)) := by
  funext j
  obtain ⟨p, q, rfl⟩ : ∃ (p : Fin 5000) (q : Fin 64), j = ix2 p q := ⟨j 0, j 1, eq_ix2 j⟩
  exact out_rows m c t p q

/-- For ANY contents G of the result array: the function that reads G at row 5000·t + (a block row), written back through
    point t's block, is that block of G. -/
theorem rows_of_block (G : S50000x64.Idx → EReal) (t : Fin cfg0.N) :
    (cfg0.win 7).cut (grid0.coords t) (fun j : S5000x64.Idx => G (ix2 (rowIdx t (j 0)) (j 1)))
      = ((cfg0.win 7).blk t).view.read (Elt Ideal) G := by
  funext y
  rw [View.read_apply]
  refine congrArg G (funext fun a => Fin.ext ?_)
  match a with
  | ⟨0, _⟩ =>
    show 5000 * t.val + (y 0).val = win0_7.index t (0 : Fin 2) * 5000 + 1 * (y 0).val
    rw [(idx_facts t).2.2.2.2.2.2.2.1]; omega
  | ⟨1, _⟩ =>
    show (y 1).val = win0_7.index t (1 : Fin 2) * 64 + 1 * (y 1).val
    rw [(idx_facts t).2.2.2.2.2.2.2.2]; omega

/-- Point t writes back rows 5000·t … 5000·t + 4999 of the network of the arguments. -/
theorem flushed_eq (c : Dev nD) (t : Fin cfg0.N) :
    (dats m 0 c).flushed 7 t = ((cfg0.win 7).blk t).view.read (Elt Ideal) (result m c) := by
  rw [flushed7 m c t, out_rows_fun m c t]
  exact rows_of_block (result m c) t

/-! ## The row blocks cover the result -/

/-- An index of the result is in point t's block iff each coordinate is in the block's range on its axis. -/
theorem mem_blk (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v19).slice (win0_7.rect t)).set ↔ _
  rw [View.set_slice_whole, Rect.mem_set_unit]
  exact Iff.rfl

/-- Row r of the result is in the block of point r / 5000. -/
theorem cover (i : S50000x64.Idx) : ∃ t : Fin cfg0.N, (cfg0.win 7).flush t = true ∧ i ∈ ((cfg0.win 7).blk t).view.set := by
  have hN : cfg0.N = 10 := N_0
  have hi0 : (i 0).val < 50000 := (i 0).isLt
  have hi1 : (i 1).val < 64 := (i 1).isLt
  refine ⟨⟨(i 0).val / 5000, by omega⟩, flush0_7 _, ?_⟩
  rw [mem_blk]
  intro a
  match a with
  | ⟨0, _⟩ =>
    show win0_7.index _ (0 : Fin 2) * 5000 ≤ (i 0).val ∧ (i 0).val < win0_7.index _ (0 : Fin 2) * 5000 + 5000
    rw [(idx_facts _).2.2.2.2.2.2.2.1]
    show (i 0).val / 5000 * 5000 ≤ (i 0).val ∧ (i 0).val < (i 0).val / 5000 * 5000 + 5000
    omega
  | ⟨1, _⟩ =>
    show win0_7.index _ (1 : Fin 2) * 64 ≤ (i 1).val ∧ (i 1).val < win0_7.index _ (1 : Fin 2) * 64 + 64
    rw [(idx_facts _).2.2.2.2.2.2.2.2]
    omega

/-- After the run the result array is the network of the arguments. -/
theorem final (c : Dev nD) : (dats m 0 c).arrAt 7 cfg0.N = result m c :=
  (dats m 0 c).arrAt_eq_of_cover 7 (result m c) (fun t _ => flushed_eq m c t) cover

/-- The kernel's run, read: the result array at the network of the arguments, the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelValue

end
-- ==== Proof.RefValue.lean ====
/-
  The reference's result is the network: it joins the aggregated edge features and the node features along the columns,
  takes ONE product with the whole first weight matrix over all 128 columns, adds the bias, clamps at zero, and applies the
  second layer. A sum over 128 columns is the sum over the first 64 plus the sum over the last 64, so its hidden layer is the
  split layer entry by entry (no finiteness of any entry is used).
-/
import proofs.«103879_j74234214744860_2_alg».proof.Proof.Gen.ReferenceIdeal.Read
import proofs.«103879_j74234214744860_2_alg».proof.Proof.Mlp

noncomputable section

namespace Cert.RefValue

open Idealize.ShloMosaic Idealize.ShloMosaic.ValueIdx
open Cert.ReferenceIdeal Cert.ReferenceIdeal.Gen Cert.ReferenceIdeal.Read Cert.LibMatRows Cert.LibDenseLayers Cert.LibHostBroadcast Cert.Mlp

/-- The first product's dimension record is a plain [50000, 128] × [128, 256] product. -/
theorem rows_layer1 : RowsTimesMat dot_S50000x128_S128x256_S50000x256_1_0_0_1_n_n :=
  ⟨rfl, rfl, lhs_main_v13_0, lhs_main_v13_1, rhs_main_v13_0, rhs_main_v13_1⟩

/-- The second product's dimension record is a plain [50000, 256] × [256, 64] product. -/
theorem rows_layer2 : RowsTimesMat dot_S50000x256_S256x64_S50000x64_1_0_0_1_n_n :=
  ⟨rfl, rfl, lhs_main_v18_0, lhs_main_v18_1, rhs_main_v18_0, rhs_main_v18_1⟩

/-- The reference's hidden layer, entry by entry, is the split layer of the segment mean and the node features. -/
theorem hidden_apply (x0 : FVec Ideal S50000x64 .f32) (x1 : FVec Ideal S1600000x64 .f32) (x2 : (⟨S1600000, .i32⟩ : BufTy).Contents (Elt Ideal))
    (x3 : FVec Ideal S128x256 .f32) (x4 : FVec Ideal S256 .f32) (p : Fin 50000) (j : Fin 256) :
    val_main_v17 (F := Ideal) x0 x1 x2 x3 x4 (ix2 p j) = hidden (val_main_v11 (F := Ideal) x1 x2) x0 x3 (rowOf x4) (ix2 p j) := by
  refine ((val_main_v17_apply (F := Ideal) x0 x1 x2 x3 x4 (ix2 p j)).trans ?_).trans (hidden_ix2 _ _ _ _ p j).symm
  refine (Ideal.maximumf_def _ _).trans (congrArg₂ max ?_ ?_)
  · -- the pre-activation: one product over the joined row, plus the bias
    unfold val_main_v16 val_main_v15 val_main_v13 val_main_v12
    refine (ref_dense2 (k1 := 64) (k2 := 64) (k := 128) rfl rows_layer1 (val_main_v11 (F := Ideal) x1 x2) x0 x3 (val_main_v14 (F := Ideal) x4)
      concatenates_S50000x64_S50000x64_S50000x128_d1 bcast_S1x256_S50000x256_0_1 p j).trans ?_
    exact dense2At_congr rfl (fun _ => rfl) (fun _ => rfl) (fun _ => rfl)
      (vec_to_row_apply x4 bcast_S256_S1x256_1 (0 : Fin 1) j)
  · -- the clamp's zero
    exact (val_main_call0_v0_apply (F := Ideal) (ix2 p j)).trans (val_main_call0_cst_apply (F := Ideal) _)

/-- The reference's result is the network of the segment mean, the node features and the parameters. -/
theorem result_eq (x0 : FVec Ideal S50000x64 .f32) (x1 : FVec Ideal S1600000x64 .f32) (x2 : (⟨S1600000, .i32⟩ : BufTy).Contents (Elt Ideal))
    (x3 : FVec Ideal S128x256 .f32) (x4 : FVec Ideal S256 .f32) (x5 : FVec Ideal S256x64 .f32) (x6 : FVec Ideal S64 .f32) :
    val_main_v21 (F := Ideal) x0 x1 x2 x3 x4 x5 x6 = net (val_main_v11 (F := Ideal) x1 x2) x0 x3 x4 x5 x6 := by
  funext i
  obtain ⟨p, q, rfl⟩ : ∃ (p : Fin 50000) (q : Fin 64), i = ix2 p q := ⟨i 0, i 1, eq_ix2 i⟩
  refine Eq.trans ?_ (net_ix2 _ _ _ _ _ _ p q).symm
  unfold val_main_v21 val_main_v20 val_main_v18 mlpAt
  refine (ref_dense rows_layer2 (val_main_v17 (F := Ideal) x0 x1 x2 x3 x4) x5 (val_main_v19 (F := Ideal) x6)
    bcast_S1x64_S50000x64_0_1 p q).trans ?_
  exact denseAt_congr (fun j => hidden_apply x0 x1 x2 x3 x4 p j) (fun _ => rfl)
    (vec_to_row_apply x6 bcast_S64_S1x64_1 (0 : Fin 1) q)

end Cert.RefValue

end
-- ==== Proof.lean ====
/-
  The kernel: a graph-network node update. Each node takes the mean of its incoming edges' features (a segment sum of the
  edge features by receiver, divided by the receiver's edge count clamped below at one), joins it to its own features, and
  applies a two-layer network:  out = max([agg, node] · W₁ + b₁, 0) · W₂ + b₂.

  Both programs compute the segment mean with the same host operations, so it enters the proof as one term that is never
  opened. The reference then joins the two 64-column arrays and takes one product with W₁ over all 128 columns. The kernel
  never joins them: on each block of 5000 rows it multiplies the aggregated features with rows 0…63 of W₁ and the node
  features with rows 64…127 and adds the two products. A sum over 128 terms is the sum of its first 64 and its last 64 terms
  — additivity of a finite sum over a disjoint union, valid in any commutative monoid — so the two hidden layers agree entry
  by entry on the extended reals, whatever the entries are: the finiteness of the inputs is not used. The kernel's changes
  of float format are the identity at the ideal values, its matrix products run into zero accumulators, and both programs
  clamp at the same zero word.

  The modules: Mlp (the network as a function of whole arrays, entry by entry), KernelBlock (what the kernel's body stores
  on a block of rows), RegionEntry (what the host operations in front of the region put in each window's array),
  KernelValue (the ten row blocks assembled into the result array, and the kernel's run), RefValue (the reference's result
  is the network). The ideal pass rewrote nothing in the kernel, so there is nothing to preserve.
-/
import proofs.«103879_j74234214744860_2_alg».proof.Defs
import proofs.«103879_j74234214744860_2_alg».proof.Proof.Gen.Kernel
import proofs.«103879_j74234214744860_2_alg».proof.Proof.Gen.Kernel.Skeleton
import proofs.«103879_j74234214744860_2_alg».proof.Proof.Gen.Kernel.Launch
import proofs.«103879_j74234214744860_2_alg».proof.Proof.Gen.Kernel.Points
import proofs.«103879_j74234214744860_2_alg».proof.Proof.Gen.Kernel.Frame
import proofs.«103879_j74234214744860_2_alg».proof.Proof.Gen.KernelIdeal
import proofs.«103879_j74234214744860_2_alg».proof.Proof.Gen.KernelIdeal.Skeleton
import proofs.«103879_j74234214744860_2_alg».proof.Proof.Gen.KernelIdeal.Launch
import proofs.«103879_j74234214744860_2_alg».proof.Proof.Gen.KernelIdeal.Points
import proofs.«103879_j74234214744860_2_alg».proof.Proof.Gen.KernelIdeal.Frame
import proofs.«103879_j74234214744860_2_alg».proof.Proof.Gen.ReferenceIdeal
import proofs.«103879_j74234214744860_2_alg».proof.Proof.Gen.Pre_finite_inputs
import proofs.«103879_j74234214744860_2_alg».proof.Proof.Gen.KernelIdeal.Value
import proofs.«103879_j74234214744860_2_alg».proof.Proof.Gen.ReferenceIdeal.Run
import proofs.«103879_j74234214744860_2_alg».proof.Proof.Gen.ReferenceIdeal.Read
import proofs.«103879_j74234214744860_2_alg».proof.Proof.KernelValue
import proofs.«103879_j74234214744860_2_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to account for. -/
theorem preserves : Cert.preserves_Kernel_KernelIdeal := trivial

/-- From memories that agree on the arguments, both programs end with the network of the arguments in their result
    arrays: the kernel block of rows by block of rows, the reference by its composed operations. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v21_eq, Cert.RefValue.result_eq, h0, h1, h2, h3, h4, h5, h6]
  exact (Cert.KernelValue.result_def m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
